-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x1 : Shape := ⟨2, ![8192, 1]⟩
abbrev S512x4096 : Shape := ⟨2, ![512, 4096]⟩
abbrev S512x1 : Shape := ⟨2, ![512, 1]⟩
abbrev S512x1024 : Shape := ⟨2, ![512, 1024]⟩
abbrev S512 : Shape := ⟨1, ![512]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .i32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .i32⟩
  | .local _ .vmem, ⟨3, _⟩ => ⟨S512x4096, .i32⟩
  | .local _ .vmem, ⟨4, _⟩ => ⟨S512x1, .f32⟩
  | .local _ .vmem, ⟨5, _⟩ => ⟨S512x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v13 : BitVec 32 := Scalar.muli arg4 c1024_i32
  v13
def k0_off1 (k0_t1 : Fin k0_t1_loop.trips) : Fin 2 → Nat :=
  let c0_6 : Index := 0#32
  let c0_i32 : BitVec 32 := 0#32
  let c1_i32 : BitVec 32 := 1#32
  let arg4 : BitVec 32 := Scf.iv c0_i32 c1_i32 k0_t1
  let c1024_i32 : BitVec 32 := 1024#32
  let v13 : BitVec 32 := Scalar.muli arg4 c1024_i32
  let v14 : BitVec 32 := v13
  let v15 : Index := Scalar.indexCast v14
  ![0, v15.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S512x1024 : 0 < S512x1024.numel
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reducesTo_S8192x1_S_d0_1 : S8192x1.ReducesTo [0, 1] S_
  h_S_ : 0 < S_.numel
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S512x1024.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .i32 = 32 ∨ (Rect.block (s := S8192x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .i32⟩
  | .hbm, ⟨2, _⟩ => ⟨S8192x4096, .f32⟩
  | .hbm, ⟨3, _⟩ => ⟨S_, .i32⟩
  | .hbm, ⟨4, _⟩ => ⟨S8192x4096, .i32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.KernelLoop.lean ====
/-
  What one grid point of the kernel leaves in its output block, as a pure term of the point's two input blocks
  (for any float instance).

  The body walks the 512 × 4096 blocks of scores and labels in four chunks of 1024 columns.  It carries three
  512 × 1 columns — the running maximum, the running ground-truth mass, the running total mass — from chunk to
  chunk: chunk `k` reads columns `1024 k … 1024 k + 1023` of both blocks and folds them into the three columns.
  After the fourth chunk it stores `0 - log ((mass + maximum) / total + 0.05)` over the whole output block.  So the
  block the point leaves is that last expression of the four-fold composition of the chunk step, started from the
  columns `(-∞, 0, 0)`.
-/
import proofs.«172776_j87574383165526_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointValue

open Cert.KernelIdeal Cert.KernelIdeal.Gen

variable {F : FTy → Type} [FloatOps F]

theorem hz : (![0, 0] : Fin 2 → Nat) = fun _ => 0 := funext fun a => by fin_cases a <;> rfl

/-- The loop makes four trips. -/
theorem trips_eq : k0_t1_loop.trips = 4 := by decide

/-- Chunk `n` as a trip of the loop. -/
def chunkTrip (n : Nat) (h : n < 4) : Fin k0_t1_loop.trips := ⟨n, by rw [trips_eq]; exact h⟩

/-- The columns chunk `k` reads: all 512 rows, 1024 columns from the chunk's offset. -/
abbrev chunkRect (k : Fin k0_t1_loop.trips) : Rect S512x4096 :=
  Rect.unit (s := S512x4096) (k0_off1 k) S512x1024.size (k0_off1_inb k)

/-- The three carried columns. -/
abbrev Carried (F : FTy → Type) : Type := FVec F S512x1 .f32 × FVec F S512x1 .f32 × FVec F S512x1 .f32

/-- One chunk's step on the carried columns, from the blocks' contents `x0` (scores) and `x1` (labels). -/
def chunkStep (x0 : Vec F S512x4096 .f32) (x1 : Vec F S512x4096 .i32) (k : Fin k0_t1_loop.trips) (acc : Carried F) : Carried F :=
  (k0_pay6 acc.1 (View.ld (Val := Elt F) x0 (chunkRect k)) (View.ld (Val := Elt F) x1 (chunkRect k)),
    k0_pay7 acc.2.1 (View.ld (Val := Elt F) x0 (chunkRect k)) (View.ld (Val := Elt F) x1 (chunkRect k)),
    k0_pay8 acc.2.2 (View.ld (Val := Elt F) x0 (chunkRect k)))

/-- The columns the loop starts from: `-∞`, `0`, `0`. -/
abbrev carried0 : Carried F := (k0_pay1 (F := F), k0_pay2 (F := F), k0_pay3 (F := F))

/-- The columns the loop ends with: the four chunk steps in order. -/
def carried4 (x0 : Vec F S512x4096 .f32) (x1 : Vec F S512x4096 .i32) : Carried F :=
  chunkStep x0 x1 (chunkTrip 3 (by decide)) (chunkStep x0 x1 (chunkTrip 2 (by decide))
    (chunkStep x0 x1 (chunkTrip 1 (by decide)) (chunkStep x0 x1 (chunkTrip 0 (by decide)) carried0)))

section
variable (c : Dev nD) (i : grid0.Coords) (a1 : Memref sig .tc .vmem S512x4096 .f32) (h1 : a1.IsWhole)
  (a2 : Memref sig .tc .vmem S512x4096 .i32) (h2 : a2.IsWhole) (a3 : Memref sig .tc .vmem S512x1 .f32) (h3 : a3.IsWhole)
  (x0 : Vec F S512x4096 .f32) (x1 : Vec F S512x4096 .i32)

/-- One trip of the loop, on staging buffers that hold `x0` and `x1`, is the chunk step: its two loads read the
    chunk's columns of the buffers' contents. -/
theorem trip_eq (k : Fin k0_t1_loop.trips) (acc : Carried F) :
    tripR_k0_t1 (F := F) Variants.none c none i a1 h1 a2 h2 a3 h3 (h1.unread x0) (h2.unread x1) k acc = chunkStep x0 x1 k acc := by
  unfold tripR_k0_t1 trip_k0_t1 chunkStep
  dsimp only
  simp only [View.readAt_eq_ld, h1.read_unread, h2.read_unread]

/-- The carried columns before trip `k + 1` are the chunk step of those before trip `k`. -/
theorem carried_succ (init : Carried F) (k : Fin k0_t1_loop.trips) :
    st_k0_t1 (F := F) Variants.none c none i a1 h1 a2 h2 a3 h3 (h1.unread x0) (h2.unread x1) init (k.val + 1)
      = chunkStep x0 x1 k (st_k0_t1 (F := F) Variants.none c none i a1 h1 a2 h2 a3 h3 (h1.unread x0) (h2.unread x1) init k.val) :=
  (st_k0_t1_succ (F := F) Variants.none c none i a1 h1 a2 h2 a3 h3 (h1.unread x0) (h2.unread x1) init k).trans
    (trip_eq c i a1 h1 a2 h2 a3 h3 x0 x1 k _)

/-- After the four trips the loop holds `carried4`. -/
theorem loop_eq :
    st_k0_t1 (F := F) Variants.none c none i a1 h1 a2 h2 a3 h3 (h1.unread x0) (h2.unread x1) carried0 4 = carried4 x0 x1 := by
  have s := carried_succ c i a1 h1 a2 h2 a3 h3 x0 x1 (carried0 (F := F))
  unfold carried4
  refine (s (chunkTrip 3 (by decide))).trans (congrArg _ ?_)
  refine (s (chunkTrip 2 (by decide))).trans (congrArg _ ?_)
  refine (s (chunkTrip 1 (by decide))).trans (congrArg _ ?_)
  exact s (chunkTrip 0 (by decide))

/-- The block a point leaves: the body's last expression of the loop's final columns. -/
theorem out_eq :
    out0_A_2 c i a1 h1 a2 h2 a3 h3 x0 x1 = k0_pay9 (carried4 x0 x1).1 (carried4 x0 x1).2.1 (carried4 x0 x1).2.2 := by
  unfold out0_A_2
  rw [View.read_writes_eq_canon _ _ _ (cover0_A_2 c i a1 h1 a2 h2 a3 h3 x0 x1)]
  unfold kernelRun0_A
  dsimp only
  rw [View.canon_unit_zero hz]
  rw [show Scf.trips (0#32) (Scalar.addi 0#32 4#32) 1#32 = 4 from by decide, loop_eq]

end

end Cert.KernelIdeal.PointValue

end
-- ==== Proof.Spec.lean ====
/-
  The loss this certificate is about, as plain mathematics over the extended reals.

  For one row of 4096 scores with exponentials `e k` and ground-truth bits `b k`, the row's loss is
  `-log ((P + M) / D + 0.05)`, where `P = 0 + ∑ₖ (if b k then e k else 0)` is the mass of the ground-truth
  positions, `M = maxₖ (if b k then -∞ else e k)` (from `-∞`) the hardest other position, and `D = 0 + ∑ₖ e k` the
  total mass; the result is the mean of the 8192 rows' losses, `(0 + ∑ᵣ loss r) / 8192`.

  A row may also be evaluated in four chunks of 1024 consecutive positions, carrying the running maximum and the
  two running sums from chunk to chunk: the maximum of four partial maxima and the ordered chain
  `(((0 + s₀) + s₁) + s₂) + s₃` of four partial sums.  Over the extended reals that is the same number: `max`
  and `+` are associative and commutative there (no distributivity or cancellation is used, so nothing needs the
  scores to be finite), and `0 - x = -x`.
-/
import Idealize.ShloMosaic.PureOps.Ideal
import Idealize.ShloMosaic.PureOps.Ideal.Laws
import Idealize.ShloMosaic.Lib.ValueIdx

noncomputable section

open scoped BigOperators

namespace Cert.HardNeg

open Idealize.ShloMosaic Idealize.ShloMosaic.ValueIdx

/-- The four float words the two programs share: `0`, `-∞`, the added `0.05`, the row count `8192`. -/
abbrev zeroW : EReal := Ideal.ofBits .f32 0x00000000#32
abbrev ninfW : EReal := Ideal.ofBits .f32 0xFF800000#32
abbrev epsW : EReal := Ideal.ofBits .f32 0x3D4CCCCD#32
abbrev cntW : EReal := Ideal.ofBits .f32 0x46000000#32

/-! ## Positions of a row, by chunk and lane -/

/-- Position `1024 c + l` of a row: lane `l` of chunk `c`. -/
def lane (c : Fin 4) (l : Fin 1024) : Fin 4096 :=
  ⟨1024 * c.val + l.val, by have := c.isLt; have := l.isLt; omega⟩

/-- Every position is exactly one lane of one chunk. -/
def laneEquiv : Fin 4 × Fin 1024 ≃ Fin 4096 where
  toFun p := lane p.1 p.2
  invFun k := (⟨k.val / 1024, by have := k.isLt; omega⟩, ⟨k.val % 1024, Nat.mod_lt _ (by decide)⟩)
  left_inv p := by
    obtain ⟨c, l⟩ := p
    have hc := c.isLt
    have hl := l.isLt
    refine Prod.ext (Fin.ext ?_) (Fin.ext ?_)
    · show (1024 * c.val + l.val) / 1024 = c.val
      omega
    · show (1024 * c.val + l.val) % 1024 = l.val
      omega
  right_inv k := Fin.ext (by
    show 1024 * (k.val / 1024) + k.val % 1024 = k.val
    omega)

/-- A sum over the row is the sum of the four chunks' sums. -/
theorem sum_lanes {M : Type*} [AddCommMonoid M] (f : Fin 4096 → M) :
    ∑ k, f k = ∑ l, f (lane 0 l) + ∑ l, f (lane 1 l) + ∑ l, f (lane 2 l) + ∑ l, f (lane 3 l) := by
  rw [← Equiv.sum_comp laneEquiv f, Fintype.sum_prod_type, Fin.sum_univ_four]
  rfl

/-- A maximum over the row (from a floor `b0`) is the maximum of the four chunks' maxima (each from `b0`), taken
    in order from `b0`: both sides are below a bound exactly when `b0` and every entry are. -/
theorem fold_lanes (b0 : EReal) (g : Fin 4096 → EReal) :
    max (max (max (max b0 (Finset.univ.fold max b0 fun l => g (lane 0 l))) (Finset.univ.fold max b0 fun l => g (lane 1 l)))
        (Finset.univ.fold max b0 fun l => g (lane 2 l))) (Finset.univ.fold max b0 fun l => g (lane 3 l))
      = Finset.univ.fold max b0 g := by
  refine eq_of_forall_ge_iff fun u => ?_
  simp only [max_le_iff, Finset.fold_max_le, Finset.mem_univ, true_implies]
  constructor
  · rintro ⟨⟨⟨⟨h0, -, h00⟩, -, h1⟩, -, h2⟩, -, h3⟩
    refine ⟨h0, fun k => ?_⟩
    obtain ⟨⟨c, l⟩, rfl⟩ := laneEquiv.surjective k
    show g (lane c l) ≤ u
    match c with
    | ⟨0, _⟩ => exact h00 l
    | ⟨1, _⟩ => exact h1 l
    | ⟨2, _⟩ => exact h2 l
    | ⟨3, _⟩ => exact h3 l
  · rintro ⟨h0, h⟩
    exact ⟨⟨⟨⟨h0, h0, fun l => h _⟩, h0, fun l => h _⟩, h0, fun l => h _⟩, h0, fun l => h _⟩

/-! ## One row -/

/-- The loss of a row with exponentials `e` and ground-truth bits `b`. -/
def rowLoss (e : Fin 4096 → EReal) (b : Fin 4096 → BitVec 1) : EReal :=
  -(Ideal.log (Ideal.div ((zeroW + ∑ k, Scalar.select (b k) (e k) zeroW)
        + Finset.univ.fold max ninfW fun k => Scalar.select (b k) ninfW (e k))
      (zeroW + ∑ k, e k) + epsW))

/-- Chunk `c`'s hardest non-ground-truth exponential, its ground-truth mass, and its total mass. -/
def chunkMax (e : Fin 4096 → EReal) (b : Fin 4096 → BitVec 1) (c : Fin 4) : EReal :=
  Finset.univ.fold max ninfW fun l : Fin 1024 => Scalar.select (b (lane c l)) ninfW (e (lane c l))
def chunkPos (e : Fin 4096 → EReal) (b : Fin 4096 → BitVec 1) (c : Fin 4) : EReal :=
  ∑ l : Fin 1024, Scalar.select (b (lane c l)) (e (lane c l)) zeroW
def chunkSum (e : Fin 4096 → EReal) (c : Fin 4) : EReal :=
  ∑ l : Fin 1024, e (lane c l)

/-- The row's loss evaluated chunk by chunk — running maximum from `-∞`, running sums from `0`, the sign taken as
    `0 - log …` — is the row's loss. -/
theorem chunked_eq (e : Fin 4096 → EReal) (b : Fin 4096 → BitVec 1) :
    zeroW - Ideal.log (Ideal.div
        (((((zeroW + chunkPos e b 0) + chunkPos e b 1) + chunkPos e b 2) + chunkPos e b 3)
          + max (max (max (max ninfW (chunkMax e b 0)) (chunkMax e b 1)) (chunkMax e b 2)) (chunkMax e b 3))
        ((((zeroW + chunkSum e 0) + chunkSum e 1) + chunkSum e 2) + chunkSum e 3) + epsW)
      = rowLoss e b := by
  unfold rowLoss chunkPos chunkMax chunkSum
  rw [fold_lanes ninfW (fun k => Scalar.select (b k) ninfW (e k)), sum_lanes e,
    sum_lanes (fun k => Scalar.select (b k) (e k) zeroW)]
  rw [show (zeroW : EReal) = 0 from Ideal.ofBits_zero_f32, zero_sub]
  simp only [zero_add]

/-! ## The whole result -/

/-- The mean over the 8192 rows of the rows' losses, from the scores `x0` and the labels `x1`: row `r`'s
    exponentials are `exp` of its scores and its ground-truth bits are `label > 0`. -/
def meanLoss (x0 : (⟨2, ![8192, 4096]⟩ : Shape).Idx → EReal) (x1 : (⟨2, ![8192, 4096]⟩ : Shape).Idx → BitVec 32) : EReal :=
  Ideal.div (zeroW + ∑ r : Fin 8192, rowLoss (fun k => Ideal.exp (x0 (ix2 r k))) (fun k => IntOp.cmpi .sgt (x1 (ix2 r k)) 0#32)) cntW

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Fintype.sum_equiv ⟨fun i => i 0, fun a => ix1 a, fun i => (eq_ix1 i).symm, fun _ => rfl⟩ f (fun a => f (ix1 a))
    fun i => congrArg f (eq_ix1 i))

/-- A sum over an `n × 1` index set is the sum over its rows. -/
theorem sum_idx_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.HardNeg

end
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.KernelRow.lean ====
/-
  One grid point of the kernel, read row by row at the extended reals: row `p` of the block the point leaves is the
  row loss of row `p` of the point's two input blocks.

  At a row, one chunk's step takes the running maximum `a` to `max a (the chunk's maximum)`, and each running sum `s`
  to `s + (the chunk's sum)`: the chunk's lane reduction is a fold of `max` from `-∞`, respectively a sum, over the
  chunk's 1024 columns; the 512-vector of results, viewed as a 512 × 1 column, is read at row `p`; and column `l` of
  chunk `c` is column `1024 c + l` of the block.  Four steps from `(-∞, 0, 0)` give the chunked evaluation of the
  specification, which is the row loss.
-/
import proofs.«172776_j87574383165526_2_alg».proof.Proof.KernelLoop
import proofs.«172776_j87574383165526_2_alg».proof.Proof.Spec
import proofs.«172776_j87574383165526_2_alg».proof.Proof.LibRowMax
import proofs.«172776_j87574383165526_2_alg».proof.Proof.LibKeepdims

noncomputable section

open scoped BigOperators
open Idealize.ShloMosaic Idealize.ShloMosaic.TcCoe Idealize.SL.Sem

namespace Cert.KernelIdeal.PointValue

open Cert.KernelIdeal Cert.KernelIdeal.Gen Cert.HardNeg Cert.LibRowMax Cert.LibKeepdims
open Idealize.ShloMosaic.ValueIdx

/-- Row `p`'s exponentials and ground-truth bits, from a block of scores and a block of labels. -/
abbrev rowE (x0 : Vec Ideal S512x4096 .f32) (p : Fin 512) : Fin 4096 → EReal := fun k => Ideal.exp (x0 (ix2 p k))
abbrev rowB (x1 : Vec Ideal S512x4096 .i32) (p : Fin 512) : Fin 4096 → BitVec 1 := fun k => IntOp.cmpi .sgt (x1 (ix2 p k)) 0#32

/-- Column `l` of chunk `n`, row `p`, read through the chunk's rectangle, is entry `(p, 1024 n + l)` of the block. -/
theorem ld_chunk {e : EltTy} (X : Vec Ideal S512x4096 e) (n : Nat) (h : n < 4) (p : Fin 512) (l : Fin 1024) :
    View.ld (Val := Elt Ideal) X (chunkRect (chunkTrip n h)) (ix2 p l) = X (ix2 p (lane ⟨n, h⟩ l)) := by
  show X ((chunkRect (chunkTrip n h)).idx (ix2 p l)) = X (ix2 p (lane ⟨n, h⟩ l))
  refine congrArg X (funext fun ax => Fin.ext ?_)
  have ho := k0_off1_eq (chunkTrip n h)
  match ax with
  | ⟨0, _⟩ =>
    show k0_off1 (chunkTrip n h) 0 + 1 * p.val = p.val
    rw [ho]
    show 0 + 1 * p.val = p.val
    omega
  | ⟨1, _⟩ =>
    show k0_off1 (chunkTrip n h) 1 + 1 * l.val = 1024 * n + l.val
    rw [ho]
    show 1024 * n + 1 * l.val = 1024 * n + l.val
    omega

/-! ## The body's operations at a row -/

section Payloads
variable (a : FVec Ideal S512x1 .f32) (v16 : Vec Ideal S512x1024 .f32) (v18 : Vec Ideal S512x1024 .i32) (p : Fin 512) (q : Fin 1)

/-- The new running maximum at a row: the old one against the chunk's masked maximum. -/
theorem max_apply :
    k0_pay6 a v16 v18 (ix2 p q)
      = max (a (ix2 p q)) (Finset.univ.fold max ninfW fun l : Fin 1024 =>
          Scalar.select (IntOp.cmpi .sgt (v18 (ix2 p l)) 0#32) ninfW (Ideal.exp (v16 (ix2 p l)))) := by
  unfold k0_pay6 k0_pay5 k0_pay4
  show max (a (ix2 p q)) (shapeCast S512x1 _ shapeCasts_S512_S512x1 (ix2 p q)) = _
  refine congrArg (max (a (ix2 p q))) ?_
  refine (shapeCast_a_a1_apply _ _ p q).trans ?_
  refine (multiReduction_maximumf_rows _ _ _ _ _ p).trans ?_
  rfl

/-- The new running ground-truth mass at a row: the old one plus the chunk's. -/
theorem pos_apply :
    k0_pay7 a v16 v18 (ix2 p q)
      = a (ix2 p q) + ∑ l : Fin 1024, Scalar.select (IntOp.cmpi .sgt (v18 (ix2 p l)) 0#32) (Ideal.exp (v16 (ix2 p l))) zeroW := by
  unfold k0_pay7 k0_pay5 k0_pay4
  show a (ix2 p q) + shapeCast S512x1 _ shapeCasts_S512_S512x1 (ix2 p q) = _
  refine congrArg (a (ix2 p q) + ·) ?_
  refine (shapeCast_a_a1_apply _ _ p q).trans ?_
  refine (multiReduction_add_rows _ _ _ _ _ p).trans ?_
  rfl

/-- The new running total mass at a row: the old one plus the chunk's. -/
theorem sum_apply :
    k0_pay8 a v16 (ix2 p q) = a (ix2 p q) + ∑ l : Fin 1024, Ideal.exp (v16 (ix2 p l)) := by
  unfold k0_pay8 k0_pay4
  show a (ix2 p q) + shapeCast S512x1 _ shapeCasts_S512_S512x1 (ix2 p q) = _
  refine congrArg (a (ix2 p q) + ·) ?_
  refine (shapeCast_a_a1_apply _ _ p q).trans ?_
  refine (multiReduction_add_rows _ _ _ _ _ p).trans ?_
  rfl

/-- The stored value at a row, from the three final columns. -/
theorem loss_apply (A B C : FVec Ideal S512x1 .f32) :
    k0_pay9 A B C (ix2 p q) = zeroW - Ideal.log (Ideal.div (B (ix2 p q) + A (ix2 p q)) (C (ix2 p q)) + epsW) := rfl

end Payloads

/-! ## One chunk's step at a row, over the block's contents -/

section Steps
variable (a : FVec Ideal S512x1 .f32) (x0 : Vec Ideal S512x4096 .f32) (x1 : Vec Ideal S512x4096 .i32)
  (n : Nat) (h : n < 4) (p : Fin 512) (q : Fin 1)

theorem max_step :
    k0_pay6 a (View.ld (Val := Elt Ideal) x0 (chunkRect (chunkTrip n h))) (View.ld (Val := Elt Ideal) x1 (chunkRect (chunkTrip n h))) (ix2 p q)
      = max (a (ix2 p q)) (chunkMax (rowE x0 p) (rowB x1 p) ⟨n, h⟩) := by
  refine (max_apply a _ _ p q).trans (congrArg (max (a (ix2 p q))) ?_)
  unfold chunkMax
  refine congrArg (fun f => (Finset.univ : Finset (Fin 1024)).fold max ninfW f) (funext fun l => ?_)
  rw [ld_chunk, ld_chunk]

theorem pos_step :
    k0_pay7 a (View.ld (Val := Elt Ideal) x0 (chunkRect (chunkTrip n h))) (View.ld (Val := Elt Ideal) x1 (chunkRect (chunkTrip n h))) (ix2 p q)
      = a (ix2 p q) + chunkPos (rowE x0 p) (rowB x1 p) ⟨n, h⟩ := by
  refine (pos_apply a _ _ p q).trans (congrArg (a (ix2 p q) + ·) ?_)
  unfold chunkPos
  refine Finset.sum_congr rfl fun l _ => ?_
  rw [ld_chunk, ld_chunk]

theorem sum_step :
    k0_pay8 a (View.ld (Val := Elt Ideal) x0 (chunkRect (chunkTrip n h))) (ix2 p q)
      = a (ix2 p q) + chunkSum (rowE x0 p) ⟨n, h⟩ := by
  refine (sum_apply a _ p q).trans (congrArg (a (ix2 p q) + ·) ?_)
  unfold chunkSum
  refine Finset.sum_congr rfl fun l _ => ?_
  rw [ld_chunk]

end Steps

/-! ## The point's block at a row -/

section Point
variable (x0 : Vec Ideal S512x4096 .f32) (x1 : Vec Ideal S512x4096 .i32) (p : Fin 512) (q : Fin 1)

theorem carried_max :
    (carried4 x0 x1).1 (ix2 p q)
      = max (max (max (max ninfW (chunkMax (rowE x0 p) (rowB x1 p) 0)) (chunkMax (rowE x0 p) (rowB x1 p) 1))
          (chunkMax (rowE x0 p) (rowB x1 p) 2)) (chunkMax (rowE x0 p) (rowB x1 p) 3) := by
  unfold carried4 chunkStep
  dsimp only
  rw [max_step, max_step, max_step, max_step]
  rfl

theorem carried_pos :
    (carried4 x0 x1).2.1 (ix2 p q)
      = (((zeroW + chunkPos (rowE x0 p) (rowB x1 p) 0) + chunkPos (rowE x0 p) (rowB x1 p) 1)
          + chunkPos (rowE x0 p) (rowB x1 p) 2) + chunkPos (rowE x0 p) (rowB x1 p) 3 := by
  unfold carried4 chunkStep
  dsimp only
  rw [pos_step, pos_step, pos_step, pos_step]
  rfl

theorem carried_sum :
    (carried4 x0 x1).2.2 (ix2 p q)
      = (((zeroW + chunkSum (rowE x0 p) 0) + chunkSum (rowE x0 p) 1) + chunkSum (rowE x0 p) 2) + chunkSum (rowE x0 p) 3 := by
  unfold carried4 chunkStep
  dsimp only
  rw [sum_step, sum_step, sum_step, sum_step]
  rfl

/-- ROW `p` OF THE BLOCK A POINT LEAVES is the row loss of row `p` of its input blocks. -/
theorem out_apply (c : Dev nD) (i : grid0.Coords) (a1 : Memref sig .tc .vmem S512x4096 .f32) (h1 : a1.IsWhole)
    (a2 : Memref sig .tc .vmem S512x4096 .i32) (h2 : a2.IsWhole) (a3 : Memref sig .tc .vmem S512x1 .f32) (h3 : a3.IsWhole) :
    out0_A_2 (F := Ideal) c i a1 h1 a2 h2 a3 h3 x0 x1 (ix2 p q) = rowLoss (rowE x0 p) (rowB x1 p) := by
  rw [out_eq]
  refine (loss_apply p q _ _ _).trans ?_
  rw [carried_max, carried_pos, carried_sum]
  exact chunked_eq _ _

end Point

end Cert.KernelIdeal.PointValue

end
-- ==== Proof.KernelValue.lean ====
/-
  The kernel's program computes the mean row loss.

  Grid point `t` stages rows `512 t … 512 t + 511` of the scores and of the labels (all 4096 columns) and writes back
  rows `512 t … 512 t + 511` of the 8192 × 1 column of results; by the row-by-row reading of the body, what it writes
  at local row `p` is the row loss of row `512 t + p` of the two argument arrays.  The sixteen points' blocks tile the
  column (row `R` belongs to point `R / 512`), so the column ends holding every row's loss.  The two host operations
  after the region sum the column from `0` and divide by `8192`: the mean row loss.
-/
import proofs.«172776_j87574383165526_2_alg».proof.Proof.KernelRow

noncomputable section

open scoped BigOperators
open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.PointValue Cert.HardNeg
open Idealize.ShloMosaic.ValueIdx

variable (m : (ℓ : Loc nD τ sig) → Buf (Elt Ideal) ℓ) (ρ : Dev nD → PrngReg)

/-- The row of an index of the 8192 × 1 column. -/
abbrev rowOf (i : S8192x1.Idx) : Fin 8192 := ⟨(i 0).val, idx2_lt0 i⟩

/-- The column of row losses of a scores array and a labels array. -/
def lossCol (x0 : S8192x4096.Idx → EReal) (x1 : S8192x4096.Idx → BitVec 32) : S8192x1.Idx → EReal :=
  fun i => rowLoss (fun k => Ideal.exp (x0 (ix2 (rowOf i) k))) (fun k => IntOp.cmpi .sgt (x1 (ix2 (rowOf i) k)) 0#32)

/-- The printed index maps, decided over the grid: at point `t` every window is at block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Global row `512 t + p`: local row `p` of point `t`. -/
def rowAt (t : Fin cfg0.N) (p : Fin 512) : Fin 8192 :=
  ⟨512 * t.val + p.val, by have := t.isLt; have hN : cfg0.N = 16 := N_0; have := p.isLt; omega⟩

/-- Entry `(p, k)` of the scores block of point `t` is entry `(512 t + p, k)` of the scores array; -/
theorem scores_blk (c : Dev nD) (t : Fin cfg0.N) (p : Fin 512) (k : Fin 4096) :
    iblk m c 0 t (ix2 p k) = V m c main_arg0 (ix2 (rowAt t p) k) := by
  obtain ⟨e0, e1, -, -, -, -⟩ := idx_facts t
  unfold iblk
  rw [View.read_apply]
  show V m c main_arg0 _ = V m c main_arg0 _
  refine congrArg (V m c main_arg0) (funext fun a => Fin.ext ?_)
  match a with
  | ⟨0, _⟩ =>
    show win0_0.index t (0 : Fin 2) * 512 + 1 * p.val = 512 * t.val + p.val
    rw [e0]; omega
  | ⟨1, _⟩ =>
    show win0_0.index t (1 : Fin 2) * 4096 + 1 * k.val = k.val
    rw [e1]; omega

/-- and the same of the labels. -/
theorem labels_blk (c : Dev nD) (t : Fin cfg0.N) (p : Fin 512) (k : Fin 4096) :
    iblk m c 1 t (ix2 p k) = V m c main_arg1 (ix2 (rowAt t p) k) := by
  obtain ⟨-, -, e0, e1, -, -⟩ := idx_facts t
  unfold iblk
  rw [View.read_apply]
  show V m c main_arg1 _ = V m c main_arg1 _
  refine congrArg (V m c main_arg1) (funext fun a => Fin.ext ?_)
  match a with
  | ⟨0, _⟩ =>
    show win0_1.index t (0 : Fin 2) * 512 + 1 * p.val = 512 * t.val + p.val
    rw [e0]; omega
  | ⟨1, _⟩ =>
    show win0_1.index t (1 : Fin 2) * 4096 + 1 * k.val = k.val
    rw [e1]; omega

/-- WHAT POINT `t` WRITES BACK is block `t` of the column of row losses of the argument arrays. -/
theorem flushed_eq (c : Dev nD) (t : Fin cfg0.N) :
    (dats m 0 c).flushed 2 t
      = ((cfg0.win 2).blk t).view.read (Elt Ideal) (lossCol (V m c main_arg0) (V m c main_arg1)) := by
  obtain ⟨-, -, -, -, e0, e1⟩ := idx_facts t
  show (cfg0.win 2).cut (grid0.coords t) ((dats m 0 c).after 2 t) = _
  rw [after0_2]
  unfold outsAt0
  funext j
  obtain ⟨p, q, rfl⟩ : ∃ (p : Fin 512) (q : Fin 1), j = ix2 p q := ⟨j 0, j 1, eq_ix2 j⟩
  show out0_A_2 c (grid0.coords t) (ms0_0 t) (hs0_0 t) (ms0_1 t) (hs0_1 t) (ms0_2 t) (hs0_2 t) (iblk m c 0 t) (iblk m c 1 t) (ix2 p q)
    = lossCol (V m c main_arg0) (V m c main_arg1) (((cfg0.win 2).blk t).view.emb (ix2 p q))
  refine (out_apply (iblk m c 0 t) (iblk m c 1 t) p q c (grid0.coords t) (ms0_0 t) (hs0_0 t) (ms0_1 t) (hs0_1 t) (ms0_2 t) (hs0_2 t)).trans ?_
  have hr : rowOf (((cfg0.win 2).blk t).view.emb (ix2 p q)) = rowAt t p := Fin.ext (by
    show win0_2.index t (0 : Fin 2) * 512 + 1 * p.val = 512 * t.val + p.val
    rw [e0]; omega)
  unfold lossCol
  rw [hr]
  refine congrArg₂ rowLoss (funext fun k => ?_) (funext fun k => ?_)
  · exact congrArg Ideal.exp (scores_blk m c t p k)
  · exact congrArg (fun x => IntOp.cmpi .sgt x 0#32) (labels_blk m c t p k)

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

/-- Every row of the column is in the block of the point `row / 512`. -/
theorem covered (i : S8192x1.Idx) : ∃ t : Fin cfg0.N, (cfg0.win 2).flush t = true ∧ i ∈ ((cfg0.win 2).blk t).view.set := by
  have hi0 : (i 0).val < 8192 := idx2_lt0 i
  have hi1 : (i 1).val < 1 := idx2_lt1 i
  have hN : cfg0.N = 16 := N_0
  let t : Fin cfg0.N := ⟨(i 0).val / 512, by omega⟩
  obtain ⟨-, -, -, -, e0, e1⟩ := idx_facts t
  have ht : t.val = (i 0).val / 512 := rfl
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 1 ≤ (i 1).val ∧ (i 1).val < win0_2.index t (1 : Fin 2) * 1 + 1
    rw [e1]; omega

/-- THE COLUMN after the region: every row's loss. -/
theorem final_col (c : Dev nD) : (dats m 0 c).arrAt 2 cfg0.N = lossCol (V m c main_arg0) (V m c main_arg1) :=
  (dats m 0 c).arrAt_eq_of_cover 2 (lossCol (V m c main_arg0) (V m c main_arg1)) (fun t _ => flushed_eq m c t) covered

/-- The two host operations after the region, applied to a column: its sum from `0`, over `8192`. -/
theorem mean_of_col (y : (⟨S8192x1, .f32⟩ : BufTy).Contents (Elt Ideal)) (i : S_.Idx) :
    Host.divf (F := Ideal) (Host.reduceAdd (F := Ideal) y (constant (F := Ideal) S_ .f32 0x00000000#32) reducesTo_S8192x1_S_d0_1 h_S_)
        (constant (F := Ideal) S_ .f32 0x46000000#32) i
      = Ideal.div (zeroW + ∑ a : Fin 8192, y (ix2 a (0 : Fin 1))) cntW := by
  show Ideal.div (Host.reduceAdd (F := Ideal) y (constant (F := Ideal) S_ .f32 0x00000000#32) reducesTo_S8192x1_S_d0_1 h_S_ i) cntW = _
  refine congrArg (fun x => Ideal.div x cntW) ?_
  simp only [Host.reduceAdd, Ideal.hostReduceAdd_def]
  refine (Ideal.hostReduceAdd_total reducesTo_S8192x1_S_d0_1 (fun b => b.elim0) y _ i).trans ?_
  rw [sum_idx_col]
  rfl

/-- THE RESULT after the host operations that follow the region: the mean row loss of the argument arrays. -/
theorem tail_eq (c : Dev nD) :
    Pipeline.afterTail₀ cfgs (dats m) 0 (V0 m) [hostOps1] c main_v2
      = fun _ => meanLoss (m ((c : Thread nD τ).loc main_arg0)) (m ((c : Thread nD τ).loc main_arg1)) := by
  unfold Pipeline.afterTail₀
  show StableHlo.after hostOps1 _ (Proc.devRef .tc main_v2) = _
  after_results
  have hcol : Pipeline.withArrays (cfgs 0).spec c (V0 m c) (fun w => (dats m 0 c).arrAt w (cfgs 0).N) (Proc.devRef .tc main_v0)
      = lossCol (V m c main_arg0) (V m c main_arg1) :=
    (Pipeline.withArrays_arr spec0 launch0.win.arr_inj c _ _ 2).trans (final_col m c)
  rw [hcol]
  funext i
  refine (mean_of_col _ i).trans ?_
  rfl

/-- THE RUN, READ: every weakly fair execution of the kernel's program ends with its result at the mean row loss of
    the argument arrays, and the arguments unchanged. -/
theorem run : θ_run defs (onTc (τ := τ) (main (F := Ideal))) ⟨m, fun _ => 0, ρ⟩ fun r => ∀ c : Dev nD,
      r.2.mem ((c.tc : Thread nD τ).loc main_v2)
        = (fun _ => meanLoss (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.ArrayValue

end
-- ==== Proof.RefValue.lean ====
/-
  The reference computes the mean row loss.

  Read one operation at a time, the reference's result is `(0 + ∑ᵣ v r) / 8192` where, at row `r`, `v r` is
  `-log ((P + M) / D + 0.05)` with `P = 0 + ∑ₖ select (label > 0) (exp score) 0`, `M` the host's maximum from `-∞` of
  `select (label > 0) (-∞) (exp score)` over the row, and `D = 0 + ∑ₖ exp score`: the row loss of the specification,
  term by term.  The host's row maximum is a fold of `max` from `-∞` over the row's columns, and each row sum is the
  initial `0` plus the sum over the row's columns.
-/
import proofs.«172776_j87574383165526_2_alg».proof.Proof.Gen.ReferenceIdeal.Read
import proofs.«172776_j87574383165526_2_alg».proof.Proof.Spec
import proofs.«172776_j87574383165526_2_alg».proof.Proof.LibRowMax

noncomputable section

open scoped BigOperators

namespace Cert.ReferenceIdeal.RefValue

open Cert.ReferenceIdeal Cert.ReferenceIdeal.Gen Cert.ReferenceIdeal.Read Cert.HardNeg Cert.LibRowMax
open Idealize.ShloMosaic Idealize.ShloMosaic.ValueIdx

variable (x0 : (⟨S8192x4096, .f32⟩ : BufTy).Contents (Elt Ideal)) (x1 : (⟨S8192x4096, .i32⟩ : BufTy).Contents (Elt Ideal))

/-- Row `r`'s hardest non-ground-truth exponential, as the host's maximum computes it. -/
theorem rowMax_eq (r : Fin 8192) :
    val_main_v4 (F := Ideal) x0 x1 (ix1 r)
      = Finset.univ.fold max ninfW fun k : Fin 4096 => Scalar.select (IntOp.cmpi .sgt (x1 (ix2 r k)) 0#32) ninfW (Ideal.exp (x0 (ix2 r k))) := by
  unfold val_main_v4
  refine (hostReduce_maximumf_rows (val_main_v3 (F := Ideal) x0 x1) (val_main_cst_0 (F := Ideal))
    reducesTo_S8192x4096_S8192_d1 (by decide) h_S_ r).trans ?_
  simp only [val_main_v3_apply, val_main_v2_apply, val_main_v1_apply, val_main_c_apply, val_main_call0_v1_apply,
    val_main_call0_v0_apply, val_main_cst_apply, val_main_cst_0_apply, val_main_v0_apply, Ideal.hostUnary_exp_def,
    Ideal.ofBits_def]

/-- The negated logarithm the reference holds at row `r` is the row's loss. -/
theorem row_eq (r : Fin 8192) :
    val_main_v13 (F := Ideal) x0 x1 (ix1 r)
      = rowLoss (fun k => Ideal.exp (x0 (ix2 r k))) (fun k => IntOp.cmpi .sgt (x1 (ix2 r k)) 0#32) := by
  have i6 : ∀ k, idx_main_v6 (ix1 r) k = ix2 r k := fun k => funext fun a => Fin.ext (by
    match a with
    | ⟨0, _⟩ => rfl
    | ⟨1, _⟩ => rfl)
  have i8 : ∀ k, idx_main_v8 (ix1 r) k = ix2 r k := fun k => funext fun a => Fin.ext (by
    match a with
    | ⟨0, _⟩ => rfl
    | ⟨1, _⟩ => rfl)
  rw [val_main_v13_apply, val_main_v12_apply, val_main_v11_apply, val_main_v10_apply, val_main_cst_4_apply,
    val_main_v9_apply, val_main_v7_apply, rowMax_eq, val_main_v6_apply, val_main_v8_apply]
  simp only [i6, i8, val_main_v5_apply, val_main_v2_apply, val_main_v1_apply, val_main_c_apply, val_main_call1_v1_apply,
    val_main_call1_v0_apply, val_main_cst_1_apply, val_main_cst_2_apply, val_main_cst_3_apply, val_main_v0_apply,
    Ideal.hostUnary_exp_def, Ideal.hostUnary_log_def, Ideal.hostNegf_def, Ideal.negf_def, Ideal.hostDivf_def,
    Ideal.addf_def, Ideal.ofBits_def]
  rfl

/-- The reference's result is the mean row loss of its two arguments. -/
theorem result_eq : val_main_v15 (F := Ideal) x0 x1 = fun _ => meanLoss x0 x1 := by
  funext i
  rw [val_main_v15_apply, val_main_v14_apply, val_main_cst_6_apply, val_main_cst_5_apply, sum_idx1]
  simp only [row_eq, Ideal.hostDivf_def, Ideal.ofBits_def]
  rfl

end Cert.ReferenceIdeal.RefValue

end
-- ==== Proof.lean ====
/-
  The certificate of a hard-negative contrastive loss.

  Both programs take 8192 × 4096 scores and labels and return one number: the mean over the rows of
  `-log ((P + M) / D + 0.05)`, where for a row `D` is the sum of the exponentials of its scores, `P` the sum of those
  at positions whose label is positive, and `M` the largest exponential among the other positions (`-∞` if none).
  The reference computes each row's three quantities by whole-row reductions.  The kernel gives each grid point 512
  rows and walks them in four chunks of 1024 columns, carrying the running maximum and the two running sums, writes
  `0 - log …` per row into an 8192 × 1 column, and takes the column's mean outside the kernel.

  Over the extended reals the two are the same number (Proof/Spec.lean): a maximum or a sum over a row is the ordered
  combination of the four chunks' maxima or sums, because `max` and `+` are associative and commutative there, and
  `0 - x = -x`; the exponential, logarithm, quotient and every float word are the same on both sides.  No step uses
  that the scores are finite, so the precondition is never opened.

  Proof/KernelLoop.lean reads what one grid point leaves as a term of its two blocks, Proof/KernelRow.lean reads that
  term at a row as the row's loss, Proof/KernelValue.lean assembles the column from the sixteen points and applies
  the mean, and Proof/RefValue.lean reads the reference's operations as the same mean.  The idealization rewrote
  nothing, so the kernel and its idealization are related trivially.
-/
import proofs.«172776_j87574383165526_2_alg».proof.Defs
import proofs.«172776_j87574383165526_2_alg».proof.Proof.Gen.Kernel
import proofs.«172776_j87574383165526_2_alg».proof.Proof.Gen.Kernel.Frame
import proofs.«172776_j87574383165526_2_alg».proof.Proof.Gen.KernelIdeal
import proofs.«172776_j87574383165526_2_alg».proof.Proof.Gen.KernelIdeal.Frame
import proofs.«172776_j87574383165526_2_alg».proof.Proof.Gen.ReferenceIdeal
import proofs.«172776_j87574383165526_2_alg».proof.Proof.Gen.ReferenceIdeal.Run
import proofs.«172776_j87574383165526_2_alg».proof.Proof.Gen.ReferenceIdeal.Read
import proofs.«172776_j87574383165526_2_alg».proof.Proof.Gen.Pre_finite_inputs
import proofs.«172776_j87574383165526_2_alg».proof.Proof.KernelValue
import proofs.«172776_j87574383165526_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the scores and the labels, both idealized programs end with the mean row loss of
    those arrays as their result. -/
theorem algebraic : Cert.algebraic_KernelIdeal_ReferenceIdeal := by
  intro m ρ m' ρ' _ hagree
  refine ⟨fun c _ => Cert.HardNeg.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
